-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1 : Shape := ⟨2, ![512, 1]⟩
abbrev S384x384 : Shape := ⟨2, ![384, 384]⟩
abbrev S384x512 : Shape := ⟨2, ![384, 512]⟩
abbrev S512x384 : Shape := ⟨2, ![512, 384]⟩
abbrev S512x512 : Shape := ⟨2, ![512, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel
  bcast_S_S384x384 : S_.BroadcastsInDim S384x384 (![] : Fin 0 → Fin S384x384.rank)
  reducesTo_S384x384_S_d0_1 : S384x384.ReducesTo [0, 1] S_
  bcast_S_S384x512 : S_.BroadcastsInDim S384x512 (![] : Fin 0 → Fin S384x512.rank)
  reducesTo_S384x512_S_d0_1 : S384x512.ReducesTo [0, 1] S_
  bcast_S_S512x384 : S_.BroadcastsInDim S512x384 (![] : Fin 0 → Fin S512x384.rank)
  reducesTo_S512x384_S_d0_1 : S512x384.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x384 1) : IVec S_ 1 :=
  let main_c_5 : IVec S_ 1 := constantI S_ 1 1#1
  let main_v17 : IVec S_ 1 := (fun x v => Host.reduce IntOp.andi x v reducesTo_S512x384_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S512x1 .f32) (main_arg1 : FVec F S384x384 .f32) (main_arg2 : FVec F S384x512 .f32) (main_arg3 : FVec F S512x384 .f32) (main_arg4 : FVec F S512x512 .f32) : IVec S_ 1 :=
  let main_v0 : FVec F S512x1 .f32 := Host.absf main_arg0
  let main_cst : FVec F S_ .f32 := constant S_ .f32 0x7F800000#32
  let main_v1 : FVec F S512x1 .f32 := broadcastInDim S512x1 ![] bcast_S_S512x1 main_cst
  let main_v2 : IVec S512x1 1 := cmpf .olt main_v0 main_v1
  let main_c : IVec S_ 1 := constantI S_ 1 1#1
  let main_v3 : IVec S_ 1 := (fun x v => Host.reduce IntOp.andi x v reducesTo_S512x1_S_d0_1 h_S_) main_v2 main_c
  let main_v4 : FVec F S384x384 .f32 := Host.absf main_arg1
  let main_cst_0 : FVec F S_ .f32 := constant S_ .f32 0x7F800000#32
  let main_v5 : FVec F S384x384 .f32 := broadcastInDim S384x384 ![] bcast_S_S384x384 main_cst_0
  let main_v6 : IVec S384x384 1 := cmpf .olt main_v4 main_v5
  let main_c_1 : IVec S_ 1 := constantI S_ 1 1#1
  let main_v7 : IVec S_ 1 := (fun x v => Host.reduce IntOp.andi x v reducesTo_S384x384_S_d0_1 h_S_) main_v6 main_c_1
  let main_v8 : IVec S_ 1 := andi main_v3 main_v7
  let main_v9 : FVec F S384x512 .f32 := Host.absf main_arg2
  let main_cst_2 : FVec F S_ .f32 := constant S_ .f32 0x7F800000#32
  let main_v10 : FVec F S384x512 .f32 := broadcastInDim S384x512 ![] bcast_S_S384x512 main_cst_2
  let main_v11 : IVec S384x512 1 := cmpf .olt main_v9 main_v10
  let main_c_3 : IVec S_ 1 := constantI S_ 1 1#1
  let main_v12 : IVec S_ 1 := (fun x v => Host.reduce IntOp.andi x v reducesTo_S384x512_S_d0_1 h_S_) main_v11 main_c_3
  let main_v13 : IVec S_ 1 := andi main_v8 main_v12
  let main_v14 : FVec F S512x384 .f32 := Host.absf main_arg3
  let main_cst_4 : FVec F S_ .f32 := constant S_ .f32 0x7F800000#32
  let main_v15 : FVec F S512x384 .f32 := broadcastInDim S512x384 ![] bcast_S_S512x384 main_cst_4
  let main_v16 : IVec S512x384 1 := cmpf .olt main_v14 main_v15
  fn_part1 (F := F) main_arg4 main_v13 main_v16
-- ==== Kernel.lean ====
abbrev S512x1 : Shape := ⟨2, ![512, 1]⟩
abbrev S384x384 : Shape := ⟨2, ![384, 384]⟩
abbrev S384x512 : Shape := ⟨2, ![384, 512]⟩
abbrev S512x384 : Shape := ⟨2, ![512, 384]⟩
abbrev S512x512 : Shape := ⟨2, ![512, 512]⟩
abbrev S384 : Shape := ⟨1, ![384]⟩
abbrev S384x1 : Shape := ⟨2, ![384, 1]⟩
abbrev S384x384x384 : Shape := ⟨3, ![384, 384, 384]⟩
abbrev S32x384 : Shape := ⟨2, ![32, 384]⟩
abbrev S32x384x384 : Shape := ⟨3, ![32, 384, 384]⟩
abbrev S32x384x1 : Shape := ⟨3, ![32, 384, 1]⟩
abbrev S1x384x384 : Shape := ⟨3, ![1, 384, 384]⟩

abbrev nBuf : Space → Nat
  | .hbm => 7
  | .vmem => 11
  | .smem => 0
  | _ => 0

abbrev bufTy : (tb : Table) → Fin (tcTables nBuf tb) → BufTy
  | .hbm, ⟨0, _⟩ => ⟨S512x1, .f32⟩
  | .hbm, ⟨1, _⟩ => ⟨S384x384, .f32⟩
  | .hbm, ⟨2, _⟩ => ⟨S384x512, .f32⟩
  | .hbm, ⟨3, _⟩ => ⟨S512x384, .f32⟩
  | .hbm, ⟨4, _⟩ => ⟨S512x512, .f32⟩
  | .hbm, ⟨5, _⟩ => ⟨S384x384, .f32⟩
  | .hbm, ⟨6, _⟩ => ⟨S384x384x384, .f32⟩
  | .local _ .vmem, ⟨0, _⟩ => ⟨S512x1, .f32⟩
  | .local _ .vmem, ⟨1, _⟩ => ⟨S384x384, .f32⟩
  | .local _ .vmem, ⟨2, _⟩ => ⟨S384x512, .f32⟩
  | .local _ .vmem, ⟨3, _⟩ => ⟨S512x384, .f32⟩
  | .local _ .vmem, ⟨4, _⟩ => ⟨S512x512, .f32⟩
  | .local _ .vmem, ⟨5, _⟩ => ⟨S384x384, .f32⟩
  | .local _ .vmem, ⟨6, _⟩ => ⟨S32x384, .f32⟩
  | .local _ .vmem, ⟨7, _⟩ => ⟨S32x384, .f32⟩
  | .local _ .vmem, ⟨8, _⟩ => ⟨S384x384, .f32⟩
  | .local _ .vmem, ⟨9, _⟩ => ⟨S32x384x384, .f32⟩
  | .local _ .vmem, ⟨10, _⟩ => ⟨S32x384x384, .f32⟩
  | _, _ => ⟨S512x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x384x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S512x384_S512x384_0_0 : ∀ a, (![0, 0] : Fin 2 → Nat) a + S512x384.size a ≤ S512x384.size a
  h_S512x384 : 0 < S512x384.numel
  inb_S384x384_S384x384_0_0 : ∀ a, (![0, 0] : Fin 2 → Nat) a + S384x384.size a ≤ S384x384.size a
  h_S384x384 : 0 < S384x384.numel
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  broadcasts_S512x1_S512x384 : S512x1.Broadcasts S512x384
  inb_S384x512_S384x512_0_0 : ∀ a, (![0, 0] : Fin 2 → Nat) a + S384x512.size a ≤ S384x512.size a
  h_S384x512 : 0 < S384x512.numel
  reduces_S384x384_S384 : S384x384.Reduces [1] S384
  shapeCasts_S384_S384x1 : S384.ShapeCasts S384x1
  broadcasts_S384x1_S384x384 : S384x1.Broadcasts S384x384
  inb_S32x384_S32x384_0_0 : ∀ a, (![0, 0] : Fin 2 → Nat) a + S32x384.size a ≤ S32x384.size a
  h_S32x384 : 0 < S32x384.numel
  shapeCasts_S32x384_S32x384 : S32x384.ShapeCasts S32x384
  shapeCasts_S32x384_S32x384x1 : S32x384.ShapeCasts S32x384x1
  shapeCasts_S384x384_S1x384x384 : S384x384.ShapeCasts S1x384x384
  broadcasts_S32x384x1_S32x384x384 : S32x384x1.Broadcasts S32x384x384
  broadcasts_S1x384x384_S32x384x384 : S1x384x384.Broadcasts S32x384x384
  inb_S32x384x384_S32x384x384_0_0_0 : ∀ a, (![0, 0, 0] : Fin 3 → Nat) a + S32x384x384.size a ≤ S32x384x384.size a
  h_S32x384x384 : 0 < S32x384x384.numel
  dot_S512x384_S384x384_S512x384_1_0_0_1_n_n_wf : DotDims.WF S512x384 S384x384 S512x384 [1] [0] [0] [1] [] []
  dot_S512x512_S512x1_S512x1_1_0_0_1_n_n_wf : DotDims.WF S512x512 S512x1 S512x1 [1] [0] [0] [1] [] []
  dot_S384x512_S512x384_S384x384_1_0_0_1_n_n_wf : DotDims.WF S384x512 S512x384 S384x384 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S512x1.size a
  hwx0_0 : ∀ i : grid0.Coords, EltTy.bits .f32 = 32 ∨ (Rect.block (s := S512x1) S512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x512.size a ≤ S384x512.size a
  hwx0_2 : ∀ i : grid0.Coords, EltTy.bits .f32 = 32 ∨ (Rect.block (s := S384x512) S384x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x384.size a ≤ S512x384.size a
  hwx0_3 : ∀ i : grid0.Coords, EltTy.bits .f32 = 32 ∨ (Rect.block (s := S512x384) S512x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x384.size a ≤ S384x384.size a
  hwx0_5 : ∀ i : grid0.Coords, EltTy.bits .f32 = 32 ∨ (Rect.block (s := S384x384) S384x384.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x384.size a ≤ S384x384.size a
  hwx1_0 : ∀ i : grid1.Coords, EltTy.bits .f32 = 32 ∨ (Rect.block (s := S384x384) S32x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x384.size a ≤ S384x384.size a
  hwx1_1 : ∀ i : grid1.Coords, EltTy.bits .f32 = 32 ∨ (Rect.block (s := S384x384) S384x384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x384x384.size a ≤ S384x384x384.size a
  hwx1_2 : ∀ i : grid1.Coords, EltTy.bits .f32 = 32 ∨ (Rect.block (s := S384x384x384) S32x384x384.size (cc1_transform_2 i) (hinb1_2 i)).WholeWords (EltTy.packing .f32)

variable [Facts₀]

def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf
def dot_S384x512_S512x384_S384x384_1_0_0_1_n_n : DotDims S384x512 S512x384 S384x384 where
  lhsContracting := [1]
  rhsContracting := [0]
  lhsNonContracting := [0]
  rhsNonContracting := [1]
  lhsBatch := []
  rhsBatch := []
  wf := dot_S384x512_S512x384_S384x384_1_0_0_1_n_n_wf

abbrev win0_0 : Pipeline.Window sig grid0 :=
  Pipeline.Window.ofSpec (Memref.whole main_arg0) S512x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S384x384.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S32x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S384x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S32x384x384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x1 : Shape := ⟨2, ![512, 1]⟩
abbrev S384x384 : Shape := ⟨2, ![384, 384]⟩
abbrev S384x512 : Shape := ⟨2, ![384, 512]⟩
abbrev S512x384 : Shape := ⟨2, ![512, 384]⟩
abbrev S512x512 : Shape := ⟨2, ![512, 512]⟩
abbrev S_ : Shape := ⟨0, ![]⟩
abbrev S384 : Shape := ⟨1, ![384]⟩
abbrev S384x1 : Shape := ⟨2, ![384, 1]⟩
abbrev S384x384x1 : Shape := ⟨3, ![384, 384, 1]⟩
abbrev S1x384x384 : Shape := ⟨3, ![1, 384, 384]⟩
abbrev S384x384x384 : Shape := ⟨3, ![384, 384, 384]⟩

abbrev nBuf : Space → Nat
  | .hbm => 30
  | .vmem => 0
  | .smem => 0
  | _ => 0

abbrev bufTy : (tb : Table) → Fin (tcTables nBuf tb) → BufTy
  | .hbm, ⟨0, _⟩ => ⟨S512x1, .f32⟩
  | .hbm, ⟨1, _⟩ => ⟨S384x384, .f32⟩
  | .hbm, ⟨2, _⟩ => ⟨S384x512, .f32⟩
  | .hbm, ⟨3, _⟩ => ⟨S512x384, .f32⟩
  | .hbm, ⟨4, _⟩ => ⟨S512x512, .f32⟩
  | .hbm, ⟨5, _⟩ => ⟨S512x384, .f32⟩
  | .hbm, ⟨6, _⟩ => ⟨S512x1, .f32⟩
  | .hbm, ⟨7, _⟩ => ⟨S512x384, .f32⟩
  | .hbm, ⟨8, _⟩ => ⟨S512x384, .f32⟩
  | .hbm, ⟨9, _⟩ => ⟨S512x384, .f32⟩
  | .hbm, ⟨10, _⟩ => ⟨S384x384, .f32⟩
  | .hbm, ⟨11, _⟩ => ⟨S_, .f32⟩
  | .hbm, ⟨12, _⟩ => ⟨S384, .f32⟩
  | .hbm, ⟨13, _⟩ => ⟨S_, .f32⟩
  | .hbm, ⟨14, _⟩ => ⟨S384, .f32⟩
  | .hbm, ⟨15, _⟩ => ⟨S384, .f32⟩
  | .hbm, ⟨16, _⟩ => ⟨S384x1, .f32⟩
  | .hbm, ⟨17, _⟩ => ⟨S384x384, .f32⟩
  | .hbm, ⟨18, _⟩ => ⟨S384x384, .f32⟩
  | .hbm, ⟨19, _⟩ => ⟨S384x384, .f32⟩
  | .hbm, ⟨20, _⟩ => ⟨S_, .f32⟩
  | .hbm, ⟨21, _⟩ => ⟨S384, .f32⟩
  | .hbm, ⟨22, _⟩ => ⟨S384x1, .f32⟩
  | .hbm, ⟨23, _⟩ => ⟨S384x384, .f32⟩
  | .hbm, ⟨24, _⟩ => ⟨S384x384, .f32⟩
  | .hbm, ⟨25, _⟩ => ⟨S384x384x1, .f32⟩
  | .hbm, ⟨26, _⟩ => ⟨S1x384x384, .f32⟩
  | .hbm, ⟨27, _⟩ => ⟨S384x384x384, .f32⟩
  | .hbm, ⟨28, _⟩ => ⟨S384x384x384, .f32⟩
  | .hbm, ⟨29, _⟩ => ⟨S384x384x384, .f32⟩
  | _, _ => ⟨S512x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S512x1_S512x384_0_1 : S512x1.BroadcastsInDim S512x384 (![0, 1] : Fin 2 → Fin S512x384.rank)
  reducesTo_S384x384_S384_d1 : S384x384.ReducesTo [1] S384
  h_S_ : 0 < S_.numel
  bcast_S_S384 : S_.BroadcastsInDim S384 (![] : Fin 0 → Fin S384.rank)
  bcast_S384_S384x1_0 : S384.BroadcastsInDim S384x1 (![0] : Fin 1 → Fin S384x1.rank)
  bcast_S384x1_S384x384_0_1 : S384x1.BroadcastsInDim S384x384 (![0, 1] : Fin 2 → Fin S384x384.rank)
  bcast_S384x384_S384x384x1_0_1 : S384x384.BroadcastsInDim S384x384x1 (![0, 1] : Fin 2 → Fin S384x384x1.rank)
  bcast_S384x384_S1x384x384_1_2 : S384x384.BroadcastsInDim S1x384x384 (![1, 2] : Fin 2 → Fin S1x384x384.rank)
  bcast_S1x384x384_S384x384x384_0_1_2 : S1x384x384.BroadcastsInDim S384x384x384 (![0, 1, 2] : Fin 3 → Fin S384x384x384.rank)
  bcast_S384x384x1_S384x384x384_0_1_2 : S384x384x1.BroadcastsInDim S384x384x384 (![0, 1, 2] : Fin 3 → Fin S384x384x384.rank)
  dot_S512x384_S384x384_S512x384_1_0_0_1_n_n_wf : DotDims.WF S512x384 S384x384 S512x384 [1] [0] [0] [1] [] []
  dot_S512x512_S512x1_S512x1_1_0_0_1_n_n_wf : DotDims.WF S512x512 S512x1 S512x1 [1] [0] [0] [1] [] []
  dot_S384x512_S512x384_S384x384_1_0_0_1_n_n_wf : DotDims.WF S384x512 S512x384 S384x384 [1] [0] [0] [1] [] []

variable [Facts₀]

def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf
def dot_S384x512_S512x384_S384x384_1_0_0_1_n_n : DotDims S384x512 S512x384 S384x384 where
  lhsContracting := [1]
  rhsContracting := [0]
  lhsNonContracting := [0]
  rhsNonContracting := [1]
  lhsBatch := []
  rhsBatch := []
  wf := dot_S384x512_S512x384_S384x384_1_0_0_1_n_n_wf

class Facts : Prop extends Facts₀ where

variable [Facts]
-- ==== Proof.TwoRegions.lean ====
/-
  The idealized kernel's run, with its RESULT buffer named.

  @main is two kernel regions with no host operation between or around them. The contents of every buffer at
  the three boundaries (launch, between the regions, return) are the generated fold `W0`, `W1`, `W2`: a region
  changes only the arrays its windows write back. The run below is the two regions launched one after the
  other over that fold, and its post reads every unscoped buffer at the last boundary: the result
  `main_v1` at `W2`'s value there, each argument at its launch contents.
-/
import proofs.«108995_j47811575939243_1_alg».proof.Proof.Gen.KernelIdeal.Frame

set_option maxRecDepth 16384

noncomputable section

namespace Cert.KernelIdeal.TwoRegions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds what the fold
    through the two regions leaves in it, and the five arguments what they were launched with. -/
theorem run_result : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

/-- The result buffer at the return is what the second region's write-backs leave in its output array. -/
theorem result_arr (c : Dev nD) :
    W2 m ρ c (Proc.devRef .tc main_v1) = (dat1 (V1 m ρ) c).arrAt 2 cfg1.N := W2_arr m ρ c 2

/-- The second region finds in `main_v0` what the first region's write-backs leave in its output array. -/
theorem mid_arr (c : Dev nD) :
    V1 m ρ c main_v0 = (dat0 (V0 m ρ) c).arrAt 5 cfg0.N := W1_arr m ρ c 5

end Cert.KernelIdeal.TwoRegions

end
-- ==== Proof.LibOuterProduct.lean ====
/-
  A matrix scaled row by row by the rows of another, as a rank-3 array.

  From `x : [a, b]` and `y : [b, c]` form `out(i, j, k) = x(i, j) · y(j, k)`. A vector program writes it
  `x[:, :, None] * y[None, :, :]`: `x` gets a trailing unit axis by a cast and is repeated along it by a broadcast,
  `y` gets a leading unit axis by a cast and is repeated along it by a broadcast, and the two `[a, b, c]` arrays are
  multiplied entry by entry. Each re-laying, read at an index, is the operand at the evident index, for any extents:
  the cast `[a, b] → [a, b, 1]` at `(i, j, u)` reads `(i, j)`; the broadcast `[a, b, 1] → [a, b, c]` at `(i, j, k)` reads
  `(i, j, 0)`; the broadcast `[1, b, c] → [a, b, c]` at `(i, j, k)` reads `(0, j, k)`. On the extended reals the
  product of the two re-laid arrays at `(i, j, k)` is therefore `x(i, j) · y(j, k)`.
-/
import Idealize.ShloMosaic.Lib.ValueLayout
import Idealize.ShloMosaic.Lib.ValueIdx
import Idealize.ShloMosaic.Lib.Pipeline.Value
import Idealize.ShloMosaic.PureOps.Ideal

noncomputable section

namespace Cert.LibOuterProduct

open Idealize.ShloMosaic Idealize.ShloMosaic.ValueIdx

variable {α : Type}

/-- An `[a, b]` array cast to `[a, b, 1]` reads, at `(i, j, u)`, the operand at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- THE PRODUCT at `(i, j, k)`: `x(i, j) · y(j, k)`, on the extended reals. -/
theorem outer_apply {a b c : ℕ} (x : FVec Ideal ⟨2, ![a, b]⟩ .f32) (y : FVec Ideal ⟨2, ![b, c]⟩ .f32)
    (hx : (⟨2, ![a, b]⟩ : Shape).ShapeCasts ⟨3, ![a, b, 1]⟩) (hy : (⟨2, ![b, c]⟩ : Shape).ShapeCasts ⟨3, ![1, b, c]⟩)
    (hbx : (⟨3, ![a, b, 1]⟩ : Shape).Broadcasts ⟨3, ![a, b, c]⟩) (hby : (⟨3, ![1, b, c]⟩ : Shape).Broadcasts ⟨3, ![a, b, c]⟩)
    (i : Fin a) (j : Fin b) (k : Fin c) :
    mulf (broadcastTo ⟨3, ![a, b, c]⟩ (shapeCast ⟨3, ![a, b, 1]⟩ x hx) hbx)
        (broadcastTo ⟨3, ![a, b, c]⟩ (shapeCast ⟨3, ![1, b, c]⟩ y hy) hby) (ix3 i j k)
      = x (ix2 i j) * y (ix2 j k) := by
  show (broadcastTo ⟨3, ![a, b, c]⟩ (shapeCast ⟨3, ![a, b, 1]⟩ x hx) hbx (ix3 i j k) : EReal)
      * broadcastTo ⟨3, ![a, b, c]⟩ (shapeCast ⟨3, ![1, b, c]⟩ y hy) hby (ix3 i j k) = _
  rw [broadcastTo_ab1_abc_apply, shapeCast_ab_ab1_apply, broadcastTo_1bc_abc_apply, shapeCast_ab_1ab_apply]

/-- The array `out(i, j, k) = x(i, j) · y(j, k)` itself, as one function of `x` and `y`. -/
def outer {a b c : ℕ} (x : (⟨2, ![a, b]⟩ : Shape).Idx → EReal) (y : (⟨2, ![b, c]⟩ : Shape).Idx → EReal) :
    (⟨3, ![a, b, c]⟩ : Shape).Idx → EReal :=
  fun i => x (ix2 (i 0) (i 1)) * y (ix2 (i 1) (i 2))

theorem outer_ix3 {a b c : ℕ} (x : (⟨2, ![a, b]⟩ : Shape).Idx → EReal) (y : (⟨2, ![b, c]⟩ : Shape).Idx → EReal)
    (i : Fin a) (j : Fin b) (k : Fin c) : outer x y (ix3 i j k) = x (ix2 i j) * y (ix2 j k) := rfl

end Cert.LibOuterProduct

end
-- ==== Proof.RegionValues.lean ====
/-
  What each region leaves in its output array, as one function of the arrays the region finds.

  FIRST REGION. One grid point; every window's block is its whole array (all block indices are 0). The body loads the
  five argument arrays whole, and its one store fills the whole `[384, 384]` output block with the attention weights
  computed from them. So the output array `main_v0` ends holding that value.

  SECOND REGION. Twelve grid points; at point `t` the weights' window holds rows `32 t … 32 t + 31` of `main_v0`, the
  features' window the whole of `v`, and the output window the slab `32 t … 32 t + 31` of the `[384, 384, 384]` result.
  The body stores `alpha(32 t + ii, j) · v(j, k)` at `(ii, j, k)` of the slab: slab `t` of the array
  `out(i, j, k) = alpha(i, j) · v(j, k)`. The twelve slabs tile the result (row `i` is in slab `i / 32`), so the result array
  ends holding `out`.
-/
import proofs.«108995_j47811575939243_1_alg».proof.Proof.Gen.KernelIdeal.Frame
import proofs.«108995_j47811575939243_1_alg».proof.Proof.LibOuterProduct
import Idealize.ShloMosaic.Lib.Pipeline.Value
import Idealize.ShloMosaic.Lib.ValueIdx

set_option maxRecDepth 16384

noncomputable section

namespace Cert.KernelIdeal.RegionValues

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.LibOuterProduct

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The first region -/

section First

variable {F : FTy → Type} [FloatOps F]
variable (V : (c : Dev nD) → (b : Ref sig .tc) → Buf (Elt F) ((c : Thread nD τ).loc b))

/-- Every window of the first region sits at block index 0 on both axes, at its one grid point. -/
theorem firstIndex : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem firstPoint : ∃ t : Fin cfg0.N, win0_5.index t = ![0, 0] :=
  (by decide +kernel : ∃ t : Fin grid0.N, win0_5.index t = ![0, 0])

/-- The weights the body computes from the five arrays the region finds. -/
abbrev weightsOf (c : Dev nD) : FVec F S384x384 .f32 :=
  k0_pay1 (V c main_arg3) (V c main_arg1) (V c main_arg4) (V c main_arg0) (V c main_arg2)

/-- Each input block at the one grid point is its whole array. -/
theorem block0_0 (c : Dev nD) (t : Fin cfg0.N) : iblk0 V c 0 t = V c main_arg0 := by
  obtain ⟨e00, e01, -⟩ := firstIndex t
  funext y
  show V c main_arg0 (((cfg0.win 0).blk t).view.emb y) = V c main_arg0 y
  refine congrArg _ (funext fun a => Fin.ext ?_)
  match a with
  | ⟨0, _⟩ => show win0_0.index t (0 : Fin 2) * 512 + 1 * (y 0).val = (y 0).val; omega
  | ⟨1, _⟩ => show win0_0.index t (1 : Fin 2) * 1 + 1 * (y 1).val = (y 1).val; omega
theorem block0_1 (c : Dev nD) (t : Fin cfg0.N) : iblk0 V c 1 t = V c main_arg1 := by
  obtain ⟨-, -, e10, e11, -⟩ := firstIndex t
  funext y
  show V c main_arg1 (((cfg0.win 1).blk t).view.emb y) = V c main_arg1 y
  refine congrArg _ (funext fun a => Fin.ext ?_)
  match a with
  | ⟨0, _⟩ => show win0_1.index t (0 : Fin 2) * 384 + 1 * (y 0).val = (y 0).val; omega
  | ⟨1, _⟩ => show win0_1.index t (1 : Fin 2) * 384 + 1 * (y 1).val = (y 1).val; omega
theorem block0_2 (c : Dev nD) (t : Fin cfg0.N) : iblk0 V c 2 t = V c main_arg2 := by
  obtain ⟨-, -, -, -, e20, e21, -⟩ := firstIndex t
  funext y
  show V c main_arg2 (((cfg0.win 2).blk t).view.emb y) = V c main_arg2 y
  refine congrArg _ (funext fun a => Fin.ext ?_)
  match a with
  | ⟨0, _⟩ => show win0_2.index t (0 : Fin 2) * 384 + 1 * (y 0).val = (y 0).val; omega
  | ⟨1, _⟩ => show win0_2.index t (1 : Fin 2) * 512 + 1 * (y 1).val = (y 1).val; omega
theorem block0_3 (c : Dev nD) (t : Fin cfg0.N) : iblk0 V c 3 t = V c main_arg3 := by
  obtain ⟨-, -, -, -, -, -, e30, e31, -⟩ := firstIndex t
  funext y
  show V c main_arg3 (((cfg0.win 3).blk t).view.emb y) = V c main_arg3 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 384 + 1 * (y 1).val = (y 1).val; omega
theorem block0_4 (c : Dev nD) (t : Fin cfg0.N) : iblk0 V c 4 t = V c main_arg4 := by
  obtain ⟨-, -, -, -, -, -, -, -, e40, e41, -⟩ := firstIndex t
  funext y
  show V c main_arg4 (((cfg0.win 4).blk t).view.emb y) = V c main_arg4 y
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- What the one point writes back is the (whole) block of the weights. -/
theorem flushedFirst (c : Dev nD) (t : Fin cfg0.N) :
    (dat0 V c).flushed 5 t = ((cfg0.win 5).blk t).view.read (Elt F) (weightsOf V c) := by
  show (cfg0.win 5).cut (grid0.coords t) ((dat0 V c).after 5 t) = _
  rw [after0_5]
  unfold out0_5
  rw [View.canon_unit_zero zeros2]
  simp only [View.ld_unit_zero (S := S512x384) zeros2, View.ld_unit_zero (S := S384x384) zeros2,
    View.ld_unit_zero (S := S512x512) zeros2, View.ld_unit_zero (S := S512x1) zeros2,
    View.ld_unit_zero (S := S384x512) zeros2]
  rw [block0_0 V c t, block0_1 V c t, block0_2 V c t, block0_3 V c t, block0_4 V c t]
  obtain ⟨-, -, -, -, -, -, -, -, -, -, e50, e51⟩ := firstIndex t
  funext y
  show weightsOf V c y = weightsOf V c (((cfg0.win 5).blk t).view.emb y)
  refine congrArg _ (funext fun a => Fin.ext ?_)
  match a with
  | ⟨0, _⟩ => show (y 0).val = win0_5.index t (0 : Fin 2) * 384 + 1 * (y 0).val; omega
  | ⟨1, _⟩ => show (y 1).val = win0_5.index t (1 : Fin 2) * 384 + 1 * (y 1).val; omega

theorem memFirst (t : Fin cfg0.N) (i : S384x384.Idx) :
    i ∈ ((cfg0.win 5).blk t).view.set ↔ ∀ a : Fin 2, win0_5.index t a * S384x384.size a ≤ (i a).val ∧ (i a).val < win0_5.index t a * S384x384.size a + S384x384.size a := by
  show i ∈ ((View.whole main_v0).slice (win0_5.rect t)).set ↔ _
  rw [View.set_slice_whole, Rect.mem_set_unit]
  exact Iff.rfl

/-- THE FIRST REGION'S OUTPUT ARRAY after the region: the weights of the arrays it found. -/
theorem finalFirst (c : Dev nD) : (dat0 V c).arrAt 5 cfg0.N = weightsOf V c := by
  refine (dat0 V c).arrAt_eq_of_cover 5 (weightsOf V c) (fun t _ => flushedFirst V c t) fun i => ?_
  obtain ⟨t, ht⟩ := firstPoint
  have q0 : win0_5.index t (0 : Fin 2) = 0 := congrFun ht 0
  have q1 : win0_5.index t (1 : Fin 2) = 0 := congrFun ht 1
  have hi0 : (i 0).val < 384 := (i 0).isLt
  have hi1 : (i 1).val < 384 := (i 1).isLt
  refine ⟨t, flush0_5 t, ?_⟩
  rw [memFirst]
  intro a
  match a with
  | ⟨0, _⟩ => show win0_5.index t (0 : Fin 2) * 384 ≤ (i 0).val ∧ (i 0).val < win0_5.index t (0 : Fin 2) * 384 + 384; omega
  | ⟨1, _⟩ => show win0_5.index t (1 : Fin 2) * 384 ≤ (i 1).val ∧ (i 1).val < win0_5.index t (1 : Fin 2) * 384 + 384; omega

end First

/-! ## The second region -/

section Second

variable (V : (c : Dev nD) → (b : Ref sig .tc) → Buf (Elt Ideal) ((c : Thread nD τ).loc b))

/-- At point `t` the weights' window and the output window sit at block `t` along the first axis and at block 0 along the
    others; the features' window at block 0 on both axes. -/
theorem secondIndex : ∀ t : Fin cfg1.N,
    win1_0.index t (0 : Fin 2) = win1_2.index t (0 : Fin 3) ∧ win1_0.index t (1 : Fin 2) = 0
    ∧ win1_1.index t (0 : Fin 2) = 0 ∧ win1_1.index t (1 : Fin 2) = 0
    ∧ win1_2.index t (1 : Fin 3) = 0 ∧ win1_2.index t (2 : Fin 3) = 0 :=
  (by decide +kernel : ∀ t : Fin grid1.N, _)

/-- Every slab index `0 … 11` is some point's. -/
theorem secondOnto : ∀ q : Fin 12, ∃ t : Fin cfg1.N, win1_2.index t = ![q.val, 0, 0] :=
  (by decide +kernel : ∀ q : Fin 12, ∃ t : Fin grid1.N, win1_2.index t = ![q.val, 0, 0])

/-- The body's stored value at `(ii, j, k)` of the slab: the weights' block at `(ii, j)` times the features at `(j, k)`. -/
theorem slab_apply (x0 : FVec Ideal S32x384 .f32) (x1 : FVec Ideal S384x384 .f32) (ii : Fin 32) (j k : Fin 384) :
    k1_pay1 (F := Ideal) x0 x1 (ix3 ii j k) = x0 (ix2 ii j) * x1 (ix2 j k) := by
  have e : shapeCast S32x384 x0 Facts₀.shapeCasts_S32x384_S32x384 = x0 := shapeCast_self _ _
  show mulf (broadcastTo S32x384x384 (shapeCast S32x384x1 (shapeCast S32x384 x0 Facts₀.shapeCasts_S32x384_S32x384)
        Facts₀.shapeCasts_S32x384_S32x384x1) Facts₀.broadcasts_S32x384x1_S32x384x384)
      (broadcastTo S32x384x384 (shapeCast S1x384x384 x1 Facts₀.shapeCasts_S384x384_S1x384x384)
        Facts₀.broadcasts_S1x384x384_S32x384x384) (ix3 ii j k) = _
  rw [e]
  exact outer_apply x0 x1 _ _ _ _ ii j k

/-- WHAT POINT `t` WRITES BACK is slab `t` of `out(i, j, k) = alpha(i, j) · v(j, k)`, with `alpha` and `v` the arrays the
    region finds in `main_v0` and `main_arg1`. -/
theorem flushedSecond (c : Dev nD) (t : Fin cfg1.N) :
    (dat1 V c).flushed 2 t = ((cfg1.win 2).blk t).view.read (Elt Ideal) (outer (V c main_v0) (V c main_arg1)) := by
  show (cfg1.win 2).cut (grid1.coords t) ((dat1 V c).after 2 t) = _
  rw [after1_2]
  unfold out1_2
  rw [View.canon_unit_zero zeros3]
  simp only [View.ld_unit_zero (S := S32x384) zeros2, View.ld_unit_zero (S := S384x384) zeros2]
  obtain ⟨e0, e1, e2, e3, e4, e5⟩ := secondIndex t
  show (k1_pay1 (F := Ideal) (iblk1 V c 0 t) (iblk1 V c 1 t) : S32x384x384.Idx → EReal)
      = fun y : S32x384x384.Idx => outer (V c main_v0) (V c main_arg1) (((cfg1.win 2).blk t).view.emb y)
  funext y
  obtain ⟨ii, j, k, rfl⟩ : ∃ (ii : Fin 32) (j : Fin 384) (k : Fin 384), y = ix3 ii j k := ⟨y 0, y 1, y 2, eq_ix3 y⟩
  refine (slab_apply (iblk1 V c 0 t) (iblk1 V c 1 t) ii j k).trans ?_
  show FloatOps.mulf (F := Ideal) (φ := .f32) (V c main_v0 (((cfg1.win 0).blk t).view.emb (ix2 ii j)))
        (V c main_arg1 (((cfg1.win 1).blk t).view.emb (ix2 j k)))
      = FloatOps.mulf (F := Ideal) (φ := .f32)
        (V c main_v0 (ix2 ((((cfg1.win 2).blk t).view.emb (ix3 ii j k)) 0) ((((cfg1.win 2).blk t).view.emb (ix3 ii j k)) 1)))
        (V c main_arg1 (ix2 ((((cfg1.win 2).blk t).view.emb (ix3 ii j k)) 1) ((((cfg1.win 2).blk t).view.emb (ix3 ii j k)) 2)))
  have h0 : ((cfg1.win 0).blk t).view.emb (ix2 ii j)
      = ix2 ((((cfg1.win 2).blk t).view.emb (ix3 ii j k)) 0) ((((cfg1.win 2).blk t).view.emb (ix3 ii j k)) 1) := by
    funext a; apply Fin.ext
    match a with
    | ⟨0, _⟩ => show win1_0.index t (0 : Fin 2) * 32 + 1 * ii.val = win1_2.index t (0 : Fin 3) * 32 + 1 * ii.val; omega
    | ⟨1, _⟩ => show win1_0.index t (1 : Fin 2) * 384 + 1 * j.val = win1_2.index t (1 : Fin 3) * 384 + 1 * j.val; omega
  have h1 : ((cfg1.win 1).blk t).view.emb (ix2 j k)
      = ix2 ((((cfg1.win 2).blk t).view.emb (ix3 ii j k)) 1) ((((cfg1.win 2).blk t).view.emb (ix3 ii j k)) 2) := by
    funext a; apply Fin.ext
    match a with
    | ⟨0, _⟩ => show win1_1.index t (0 : Fin 2) * 384 + 1 * j.val = win1_2.index t (1 : Fin 3) * 384 + 1 * j.val; omega
    | ⟨1, _⟩ => show win1_1.index t (1 : Fin 2) * 384 + 1 * k.val = win1_2.index t (2 : Fin 3) * 384 + 1 * k.val; omega
  rw [h0, h1]
  rfl

theorem memSecond (t : Fin cfg1.N) (i : S384x384x384.Idx) :
    i ∈ ((cfg1.win 2).blk t).view.set ↔ ∀ a : Fin 3, win1_2.index t a * S32x384x384.size a ≤ (i a).val ∧ (i a).val < win1_2.index t a * S32x384x384.size a + S32x384x384.size a := by
  show i ∈ ((View.whole main_v1).slice (win1_2.rect t)).set ↔ _
  rw [View.set_slice_whole, Rect.mem_set_unit]
  exact Iff.rfl

/-- THE RESULT ARRAY after the second region: `out(i, j, k) = alpha(i, j) · v(j, k)` of the arrays it found. -/
theorem finalSecond (c : Dev nD) : (dat1 V c).arrAt 2 cfg1.N = outer (V c main_v0) (V c main_arg1) := by
  refine (dat1 V c).arrAt_eq_of_cover 2 (outer (V c main_v0) (V c main_arg1)) (fun t _ => flushedSecond V c t) fun i => ?_
  have hi0 : (i 0).val < 384 := (i 0).isLt
  have hi1 : (i 1).val < 384 := (i 1).isLt
  have hi2 : (i 2).val < 384 := (i 2).isLt
  obtain ⟨t, ht⟩ := secondOnto ⟨(i 0).val / 32, by omega⟩
  have q0 : win1_2.index t (0 : Fin 3) = (i 0).val / 32 := congrFun ht 0
  have q1 : win1_2.index t (1 : Fin 3) = 0 := congrFun ht 1
  have q2 : win1_2.index t (2 : Fin 3) = 0 := congrFun ht 2
  refine ⟨t, flush1_2 t, ?_⟩
  rw [memSecond]
  intro a
  match a with
  | ⟨0, _⟩ => show win1_2.index t (0 : Fin 3) * 32 ≤ (i 0).val ∧ (i 0).val < win1_2.index t (0 : Fin 3) * 32 + 32; omega
  | ⟨1, _⟩ => show win1_2.index t (1 : Fin 3) * 384 ≤ (i 1).val ∧ (i 1).val < win1_2.index t (1 : Fin 3) * 384 + 384; omega
  | ⟨2, _⟩ => show win1_2.index t (2 : Fin 3) * 384 ≤ (i 2).val ∧ (i 2).val < win1_2.index t (2 : Fin 3) * 384 + 384; omega

end Second

end Cert.KernelIdeal.RegionValues

end
-- ==== Proof.KernelResult.lean ====
/-
  The idealized kernel's result as one function of its five arguments.

  The run through the two regions leaves in the result buffer what the second region's write-backs leave in its output
  array: `out(i, j, k) = alpha(i, j) · v(j, k)` of the arrays that region finds in `main_v0` and `main_arg1`. The second
  region finds in `main_v0` what the first region's write-backs left there — the weights of the five arrays as launched
  — and in `main_arg1` the features as launched, because the first region only reads them. So the result is the outer
  product of the weights of the launched arguments with the launched features.
-/
import proofs.«108995_j47811575939243_1_alg».proof.Proof.TwoRegions
import proofs.«108995_j47811575939243_1_alg».proof.Proof.RegionValues

set_option maxRecDepth 16384

noncomputable section

namespace Cert.KernelIdeal.Result

open Idealize.ShloMosaic Idealize.ShloMosaic.TcCoe
open Idealize.SL Idealize.SL.Sem
open Idealize.ShloMosaic.Pipeline (Dat Cfg Window)
open Cert.KernelIdeal Cert.KernelIdeal.Gen Cert.KernelIdeal.TwoRegions Cert.KernelIdeal.RegionValues Cert.LibOuterProduct

variable (m : (ℓ : Loc nD τ sig) → Buf (Elt Ideal) ℓ) (ρ : Dev nD → PrngReg)

/-- The weights of the launched arguments, and the result they give with the launched features. -/
abbrev weights (c : Dev nD) : FVec Ideal S384x384 .f32 :=
  k0_pay1 (F := Ideal) (m ((c.tc : Thread nD τ).loc main_arg3)) (m ((c.tc : Thread nD τ).loc main_arg1))
    (m ((c.tc : Thread nD τ).loc main_arg4)) (m ((c.tc : Thread nD τ).loc main_arg0)) (m ((c.tc : Thread nD τ).loc main_arg2))

abbrev result (c : Dev nD) : S384x384x384.Idx → EReal :=
  outer (a := 384) (b := 384) (c := 384) (weights m c) (m ((c.tc : Thread nD τ).loc main_arg1))

/-- The second region finds the features as launched: the first region's window over them is an input. -/
theorem mid_features (c : Dev nD) : V1 m ρ c main_arg1 = m ((c.tc : Thread nD τ).loc main_arg1) :=
  (W1_arr m ρ c 1).trans (((dat0 (V0 m ρ) c).arrAt_in 1 rfl _).trans (A_eq0 (V0 m ρ) c 1))

/-- The result buffer at the return. -/
theorem result_value (c : Dev nD) : W2 m ρ c (Proc.devRef .tc main_v1) = result m c := by
  rw [result_arr, finalSecond (V1 m ρ) c, mid_arr, finalFirst (V0 m ρ) c, mid_features]

/-- THE KERNEL'S RUN: every weakly fair execution terminates without a fault, the result buffer holding
    `out(i, j, k) = alpha(i, j) · v(j, k)` of the launched arguments and the arguments unchanged. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (run_result m ρ)

end Cert.KernelIdeal.Result

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.LibColumnBroadcast.lean ====
/-
  A vector laid along a column and repeated over the columns.

  `broadcast_in_dim` applied twice, [n] -> [n, 1] (the vector becomes a column) and [n, 1] -> [n, c] (the column is
  repeated c times): entry (k, q) of the result is entry k of the vector, whatever the column q.  This is how
  `v[:, None] * M` scales the rows of a matrix M by a vector v.
-/
import Idealize.ShloMosaic.Lib.Pipeline.Value
import Idealize.ShloMosaic.Lib.ValueIdx

namespace Cert.Lib

open Idealize.ShloMosaic Idealize.ShloMosaic.ValueIdx

/-- Entry (k, q) of a length-n vector broadcast to a column [n, 1] and then to [n, c] is the vector's entry k.
    Holds for every n and c (for n = 1 the only index is 0 on both sides). -/
theorem broadcastInDim_column_apply {α : Type} {n c : ℕ} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2))
    (k : Fin n) (q : Fin c) :
    broadcastInDim ⟨2, ![n, c]⟩ ![0, 1] h2 (broadcastInDim ⟨2, ![n, 1]⟩ ![0] h1 v) (ix2 k q) = v (ix1 k) := by
  refine (broadcastInDim_apply _ h2 _ (ix2 k q) (ix2 k (0 : Fin 1)) fun a => ?_).trans
    (broadcastInDim_apply _ h1 v (ix2 k (0 : Fin 1)) (ix1 k) fun a => ?_)
  · match a with
    | ⟨0, _⟩ =>
      show k.val = if n = 1 then 0 else k.val
      split
      · have := k.isLt; omega
      · rfl
    | ⟨1, _⟩ =>
      show (0 : ℕ) = if (1 : ℕ) = 1 then 0 else q.val
      rw [if_pos rfl]
  · match a with
    | ⟨0, _⟩ =>
      show k.val = if n = 1 then 0 else k.val
      split
      · have := k.isLt; omega
      · rfl

end Cert.Lib
-- ==== Proof.LibRowSoftmax.lean ====
/-
  Kernel spellings and host spellings of one computation, on the extended reals.

  A vector program and a host program spell the same array operations differently: a matrix product accumulated
  into a zero array against a plain contraction; a reduction from a splatted neutral element against a reduction
  from a scalar initial value; a vector re-laid as a column and repeated along the rows by a cast and a broadcast
  against two `broadcast_in_dim`s; `tanh`, `exp` and the quotient as vector operations against the host's. At the
  ideal instance — every float an extended real, every operation the exact one — each pair is ONE function of its
  operands, as whole arrays. The lemmas below say so, pair by pair, for any extents, and then for the composite
  every attention kernel contains: the softmax of each row of an `[a, b]` array,

      e(p, q) = exp (z(p, q) - max (-∞, max_q z(p, q))),     softmax(p, q) = e(p, q) / (0 + Σ_q e(p, q)),

  in the vector spelling (`rowSoftmaxV`) and in the host spelling (`rowSoftmaxH`). No finiteness is needed: both sides
  apply the same operations to the same numbers in the same order, and the two sums range over the same index set.
-/
import Idealize.ShloMosaic.Lib.ValueLayout
import Idealize.ShloMosaic.Lib.ValueIdx
import Idealize.ShloMosaic.Lib.Pipeline.Value
import Idealize.ShloMosaic.PureOps.Ideal.Laws
import proofs.«108995_j47811575939243_1_alg».proof.Proof.LibColumnLayout
import proofs.«108995_j47811575939243_1_alg».proof.Proof.LibColumnBroadcast

noncomputable section

namespace Cert.LibRowSoftmax

open Idealize.ShloMosaic Idealize.ShloMosaic.ValueIdx

/-! ## One operation at a time -/

/-- A matrix product accumulated into the zero array is the plain contraction: at each output index both are the sum,
    over the contracted index, of the products of the operands' entries. -/
theorem matmul_zero_eq_dotGeneral {sl sr so : Shape} {φ₁ φ₂ : FTy} (d : DotDims sl sr so) (prec : Option ContractPrecision)
    (l : FVec Ideal sl φ₁) (r : FVec Ideal sr φ₂) :
    matmul d prec l r (constant (F := Ideal) so .f32 0x00000000#32) = Host.dotGeneral d prec l r := by
  funext j
  simp only [matmul, Host.dotGeneral]
  rw [Ideal.matmul_constant_zero_apply, Ideal.dotGeneral_apply]

/-- The hyperbolic tangent, the exponential and the quotient are the same functions on the extended reals whichever
    program applies them. -/
theorem tanh_eq_host {s : Shape} {φ : FTy} (x : FVec Ideal s φ) : tanh x = Host.tanh x := rfl
theorem exp_eq_host {s : Shape} {φ : FTy} (x : FVec Ideal s φ) : exp x = Host.exp x := rfl
theorem divf_eq_host {s : Shape} {φ : FTy} (x y : FVec Ideal s φ) : divf x y = Host.divf x y := rfl

/-- A maximum along one axis: the vector reduction from the accumulator's value and the host's reduction from a
    scalar holding the same value are both the fold of `max` from that value over the axis's coordinates. -/
theorem reduceMax_eq {s t u : Shape} {a : Fin s.rank} (src : FVec Ideal s .f32) (acc : BitVec 32)
    (h : s.Reduces [a] t) (h' : s.ReducesTo [a] t) (hφ : FKind.Formats .f32)
    (hacc : acc = FKind.maximumf.neutral .f32 hφ) (hu : 0 < u.numel) :
    multiReduction .maximumf [a] t src acc h hφ hacc
      = Host.reduce FloatOps.maximumf src (constant (F := Ideal) u .f32 acc) h' hu := by
  funext j
  rw [Ideal.multiReduction_maximumf_single src acc h hφ hacc j,
    Host.reduce_eq_fold_single FloatOps.maximumf src _ h' h hu j]
  rfl

/-- A sum along one axis: the vector reduction and the host's reduction from a scalar zero are both the sum over the
    axis's coordinates (the host's has the zero in front). -/
theorem reduceAdd_eq {s t u : Shape} {a : Fin s.rank} (src : FVec Ideal s .f32)
    (h : s.Reduces [a] t) (h' : s.ReducesTo [a] t) (hφ : FKind.Formats .f32)
    (hacc : (0x00000000#32 : BitVec 32) = FKind.add.neutral .f32 hφ) (hu : 0 < u.numel) :
    multiReduction .add [a] t src 0x00000000#32 h hφ hacc
      = Host.reduceAdd src (constant (F := Ideal) u .f32 0x00000000#32) h' hu := by
  funext j
  rw [Ideal.multiReduction_add_single src _ h hφ hacc j]
  simp only [Host.reduceAdd, Ideal.hostReduceAdd_def]
  rw [Ideal.hostReduceAdd_single h' h]
  show _ = Ideal.ofBits .f32 0x00000000#32 + _
  rw [Ideal.ofBits_zero_f32, zero_add]

/-- A length-`a` vector repeated along the rows of an `[a, b]` array: cast to a column and broadcast, or put through two
    `broadcast_in_dim`s, entry `(p, q)` is the vector's entry `p`. -/
theorem column_eq {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) :
    broadcastTo ⟨2, ![a, b]⟩ (shapeCast ⟨2, ![a, 1]⟩ v hc) hb
      = broadcastInDim ⟨2, ![a, b]⟩ ![0, 1] h2 (broadcastInDim ⟨2, ![a, 1]⟩ ![0] h1 v) := by
  funext j
  obtain ⟨p, q, rfl⟩ : ∃ (p : Fin a) (q : Fin b), j = ix2 p q := ⟨j 0, j 1, eq_ix2 j⟩
  rw [Cert.LibColumnLayout.broadcastTo_a1_ab_apply, Cert.LibColumnLayout.shapeCast_a_a1_apply,
    Cert.Lib.broadcastInDim_column_apply]

/-- An `[a, 1]` column repeated along the rows of an `[a, b]` array, by a vector broadcast or by a `broadcast_in_dim`:
    entry `(p, q)` is the column's entry `(p, 0)`. -/
theorem columnBroadcast_eq {α : Type} {a b : ℕ} (v : (⟨2, ![a, 1]⟩ : Shape).Idx → α)
    (hb : (⟨2, ![a, 1]⟩ : Shape).Broadcasts ⟨2, ![a, b]⟩)
    (h2 : (⟨2, ![a, 1]⟩ : Shape).BroadcastsInDim ⟨2, ![a, b]⟩ (![0, 1] : Fin 2 → Fin 2)) :
    broadcastTo ⟨2, ![a, b]⟩ v hb = broadcastInDim ⟨2, ![a, b]⟩ ![0, 1] h2 v := by
  funext j
  obtain ⟨p, q, rfl⟩ : ∃ (p : Fin a) (q : Fin b), j = ix2 p q := ⟨j 0, j 1, eq_ix2 j⟩
  rw [Cert.LibColumnLayout.broadcastTo_a1_ab_apply]
  refine (broadcastInDim_apply _ h2 v (ix2 p q) (ix2 p (0 : Fin 1)) fun ax => ?_).symm
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-! ## The softmax of each row -/

section RowSoftmax

variable {a b : ℕ}
  (hr : (⟨2, ![a, b]⟩ : Shape).Reduces [1] ⟨1, ![a]⟩) (hφ : FKind.Formats .f32)
  (hmax : (0xFF800000#32 : BitVec 32) = FKind.maximumf.neutral .f32 hφ)
  (hadd : (0x00000000#32 : BitVec 32) = FKind.add.neutral .f32 hφ)
  (hc : (⟨1, ![a]⟩ : Shape).ShapeCasts ⟨2, ![a, 1]⟩) (hb : (⟨2, ![a, 1]⟩ : Shape).Broadcasts ⟨2, ![a, b]⟩)
  (hr' : (⟨2, ![a, b]⟩ : Shape).ReducesTo [1] ⟨1, ![a]⟩) (hu : 0 < (⟨0, ![]⟩ : Shape).numel)
  (h0 : (⟨0, ![]⟩ : Shape).BroadcastsInDim ⟨1, ![a]⟩ (![] : Fin 0 → Fin 1))
  (h1 : (⟨1, ![a]⟩ : Shape).BroadcastsInDim ⟨2, ![a, 1]⟩ (![0] : Fin 1 → Fin 2))
  (h2 : (⟨2, ![a, 1]⟩ : Shape).BroadcastsInDim ⟨2, ![a, b]⟩ (![0, 1] : Fin 2 → Fin 2))

/-- The row maxima, vector spelling: `max` of a splat of `-∞` and the reduction from `-∞` along the rows. -/
def rowMaxV (z : FVec Ideal ⟨2, ![a, b]⟩ .f32) : FVec Ideal ⟨1, ![a]⟩ .f32 :=
  maximumf (broadcast ⟨1, ![a]⟩ (FloatOps.ofBits (F := Ideal) .f32 0xFF800000#32))
    (multiReduction .maximumf [1] ⟨1, ![a]⟩ z 0xFF800000#32 hr hφ hmax)

/-- The exponentials of the entries less their row's maximum, vector spelling. -/
def expShiftV (z : FVec Ideal ⟨2, ![a, b]⟩ .f32) : FVec Ideal ⟨2, ![a, b]⟩ .f32 :=
  exp (subf z (broadcastTo ⟨2, ![a, b]⟩ (shapeCast ⟨2, ![a, 1]⟩ (rowMaxV hr hφ hmax z) hc) hb))

/-- The softmax of each row, vector spelling. -/
def rowSoftmaxV (z : FVec Ideal ⟨2, ![a, b]⟩ .f32) : FVec Ideal ⟨2, ![a, b]⟩ .f32 :=
  divf (expShiftV hr hφ hmax hc hb z)
    (broadcastTo ⟨2, ![a, b]⟩ (shapeCast ⟨2, ![a, 1]⟩
      (multiReduction .add [1] ⟨1, ![a]⟩ (expShiftV hr hφ hmax hc hb z) 0x00000000#32 hr hφ hadd) hc) hb)

/-- The row maxima, host spelling: `max` of a broadcast scalar `-∞` and the host's reduction from a scalar `-∞`. -/
def rowMaxH (z : FVec Ideal ⟨2, ![a, b]⟩ .f32) : FVec Ideal ⟨1, ![a]⟩ .f32 :=
  maximumf (broadcastInDim ⟨1, ![a]⟩ ![] h0 (constant (F := Ideal) ⟨0, ![]⟩ .f32 0xFF800000#32))
    (Host.reduce FloatOps.maximumf z (constant (F := Ideal) ⟨0, ![]⟩ .f32 0xFF800000#32) hr' hu)

/-- The exponentials of the entries less their row's maximum, host spelling. -/
def expShiftH (z : FVec Ideal ⟨2, ![a, b]⟩ .f32) : FVec Ideal ⟨2, ![a, b]⟩ .f32 :=
  Host.exp (subf z (broadcastInDim ⟨2, ![a, b]⟩ ![0, 1] h2 (broadcastInDim ⟨2, ![a, 1]⟩ ![0] h1 (rowMaxH hr' hu h0 z))))

/-- The softmax of each row, host spelling. -/
def rowSoftmaxH (z : FVec Ideal ⟨2, ![a, b]⟩ .f32) : FVec Ideal ⟨2, ![a, b]⟩ .f32 :=
  Host.divf (expShiftH hr' hu h0 h1 h2 z)
    (broadcastInDim ⟨2, ![a, b]⟩ ![0, 1] h2 (broadcastInDim ⟨2, ![a, 1]⟩ ![0] h1
      (Host.reduceAdd (expShiftH hr' hu h0 h1 h2 z) (constant (F := Ideal) ⟨0, ![]⟩ .f32 0x00000000#32) hr' hu)))

theorem rowMax_eq (z : FVec Ideal ⟨2, ![a, b]⟩ .f32) : rowMaxV hr hφ hmax z = rowMaxH hr' hu h0 z := by
  unfold rowMaxV rowMaxH
  rw [reduceMax_eq z _ hr hr' hφ hmax hu]
  rfl

theorem expShift_eq (z : FVec Ideal ⟨2, ![a, b]⟩ .f32) :
    expShiftV hr hφ hmax hc hb z = expShiftH hr' hu h0 h1 h2 z := by
  unfold expShiftV expShiftH
  rw [rowMax_eq hr hφ hmax hr' hu h0 z, column_eq _ hc hb h1 h2, exp_eq_host]

/-- THE ROW SOFTMAX is one function in the two spellings. -/
theorem rowSoftmax_eq (z : FVec Ideal ⟨2, ![a, b]⟩ .f32) :
    rowSoftmaxV hr hφ hmax hadd hc hb z = rowSoftmaxH hr' hu h0 h1 h2 z := by
  unfold rowSoftmaxV rowSoftmaxH
  rw [expShift_eq hr hφ hmax hc hb hr' hu h0 h1 h2 z, reduceAdd_eq _ hr hr' hφ hadd hu, column_eq _ hc hb h1 h2,
    divf_eq_host]

end RowSoftmax

end Cert.LibRowSoftmax

end
-- ==== Proof.Weights.lean ====
/-
  The attention weights: the first region's stored value is the reference's `alpha`.

  With `s = wv · v + (wg · h) 1ᵀ` (a `[512, 384]` array: the column `wg · h` added to every column of `wv · v`) and
  `z = wh · tanh s` (a `[384, 384]` array), the weights are the softmax of each row of `z`. The first region's body
  computes them with matrix products accumulated into zero arrays, a column broadcast and vector reductions; the
  reference with plain contractions, `broadcast_in_dim`s and host reductions. On the extended reals the two are one
  function of the five argument arrays: the three matrix products are the same sums, the column is repeated the same
  way, `tanh` is `tanh`, and the row softmax is one function in the two spellings.
-/
import proofs.«108995_j47811575939243_1_alg».proof.Proof.Gen.KernelIdeal.Skeleton
import proofs.«108995_j47811575939243_1_alg».proof.Proof.Gen.ReferenceIdeal.Read
import proofs.«108995_j47811575939243_1_alg».proof.Proof.LibRowSoftmax

noncomputable section

namespace Cert.Attention

open Idealize.ShloMosaic Cert.LibRowSoftmax

/-- The scores `z = wh · tanh (wv · v + (wg · h) 1ᵀ)` as the first region's body spells them. -/
def scoresV (h : FVec Ideal Cert.KernelIdeal.S512x1 .f32) (v : FVec Ideal Cert.KernelIdeal.S384x384 .f32) (wh : FVec Ideal Cert.KernelIdeal.S384x512 .f32)
    (wv : FVec Ideal Cert.KernelIdeal.S512x384 .f32) (wg : FVec Ideal Cert.KernelIdeal.S512x512 .f32) : FVec Ideal Cert.KernelIdeal.S384x384 .f32 :=
  matmul Cert.KernelIdeal.dot_S384x512_S512x384_S384x384_1_0_0_1_n_n none wh
    (tanh (addf
      (matmul Cert.KernelIdeal.dot_S512x384_S384x384_S512x384_1_0_0_1_n_n none wv v (constant (F := Ideal) Cert.KernelIdeal.S512x384 .f32 0x00000000#32))
      (broadcastTo Cert.KernelIdeal.S512x384
        (matmul Cert.KernelIdeal.dot_S512x512_S512x1_S512x1_1_0_0_1_n_n none wg h (constant (F := Ideal) Cert.KernelIdeal.S512x1 .f32 0x00000000#32))
        Cert.KernelIdeal.Facts₀.broadcasts_S512x1_S512x384)))
    (constant (F := Ideal) Cert.KernelIdeal.S384x384 .f32 0x00000000#32)

/-- The scores are the reference's `wh · tanh (wv · v + (wg · h) 1ᵀ)`: three matrix products into zero against three
    contractions, the column `wg · h` repeated along the rows either way. -/
theorem scores_eq (h : FVec Ideal Cert.KernelIdeal.S512x1 .f32) (v : FVec Ideal Cert.KernelIdeal.S384x384 .f32) (wh : FVec Ideal Cert.KernelIdeal.S384x512 .f32)
    (wv : FVec Ideal Cert.KernelIdeal.S512x384 .f32) (wg : FVec Ideal Cert.KernelIdeal.S512x512 .f32) :
    scoresV h v wh wv wg = Cert.ReferenceIdeal.Read.val_main_v5 (F := Ideal) h v wh wv wg := by
  unfold scoresV
  rw [matmul_zero_eq_dotGeneral, matmul_zero_eq_dotGeneral, matmul_zero_eq_dotGeneral, tanh_eq_host,
    columnBroadcast_eq _ _ Cert.ReferenceIdeal.Facts₀.bcast_S512x1_S512x384_0_1]
  rfl

/-- THE WEIGHTS: the value the first region stores is the reference's `alpha`, as whole `[384, 384]` arrays. -/
theorem weights_eq (h : FVec Ideal Cert.KernelIdeal.S512x1 .f32) (v : FVec Ideal Cert.KernelIdeal.S384x384 .f32) (wh : FVec Ideal Cert.KernelIdeal.S384x512 .f32)
    (wv : FVec Ideal Cert.KernelIdeal.S512x384 .f32) (wg : FVec Ideal Cert.KernelIdeal.S512x512 .f32) :
    Cert.KernelIdeal.Gen.k0_pay1 (F := Ideal) wv v wg h wh = Cert.ReferenceIdeal.Read.val_main_v16 (F := Ideal) h v wh wv wg := by
  have hV : Cert.KernelIdeal.Gen.k0_pay1 (F := Ideal) wv v wg h wh
      = rowSoftmaxV Cert.KernelIdeal.Facts₀.reduces_S384x384_S384 (.inl rfl) rfl rfl Cert.KernelIdeal.Facts₀.shapeCasts_S384_S384x1
          Cert.KernelIdeal.Facts₀.broadcasts_S384x1_S384x384 (scoresV h v wh wv wg) := rfl
  have hH : Cert.ReferenceIdeal.Read.val_main_v16 (F := Ideal) h v wh wv wg
      = rowSoftmaxH Cert.ReferenceIdeal.Facts₀.reducesTo_S384x384_S384_d1 Cert.ReferenceIdeal.Facts₀.h_S_ Cert.ReferenceIdeal.Facts₀.bcast_S_S384
          Cert.ReferenceIdeal.Facts₀.bcast_S384_S384x1_0 Cert.ReferenceIdeal.Facts₀.bcast_S384x1_S384x384_0_1
          (Cert.ReferenceIdeal.Read.val_main_v5 (F := Ideal) h v wh wv wg) := rfl
  rw [hV, hH, scores_eq]
  exact rowSoftmax_eq _ _ _ _ _ _ _ _ _ _ _ _

end Cert.Attention

end
-- ==== Proof.ReferenceResult.lean ====
/-
  The reference's result as the outer product of its weights with the features.

  The reference ends with `v * alpha[..., None]`: `v` is laid along a new leading axis and repeated along it, `alpha` gets a
  trailing unit axis and is repeated along it, and the two `[384, 384, 384]` arrays are multiplied entry by entry. Read at
  `(i, j, k)` the first factor is `v(j, k)` and the second `alpha(i, j)`; multiplication of extended reals commutes, so
  the entry is `alpha(i, j) · v(j, k)`.
-/
import proofs.«108995_j47811575939243_1_alg».proof.Proof.Gen.ReferenceIdeal.Read
import proofs.«108995_j47811575939243_1_alg».proof.Proof.LibOuterProduct

noncomputable section

namespace Cert.Attention

open Idealize.ShloMosaic Idealize.ShloMosaic.ValueIdx Cert.LibOuterProduct
open Cert.ReferenceIdeal Cert.ReferenceIdeal.Read

/-- The reference's result is `out(i, j, k) = alpha(i, j) · v(j, k)` with `alpha` its own weights. -/
theorem reference_result (h : FVec Ideal S512x1 .f32) (v : FVec Ideal S384x384 .f32) (wh : FVec Ideal S384x512 .f32)
    (wv : FVec Ideal S512x384 .f32) (wg : FVec Ideal S512x512 .f32) :
    val_main_v21 (F := Ideal) h v wh wv wg = outer (val_main_v16 (F := Ideal) h v wh wv wg) v := by
  funext i
  obtain ⟨p, q, r, rfl⟩ : ∃ (p : Fin 384) (q : Fin 384) (r : Fin 384), i = ix3 p q r := ⟨i 0, i 1, i 2, eq_ix3 i⟩
  rw [val_main_v21_apply, val_main_v19_apply, val_main_v18_apply, val_main_v20_apply, val_main_v17_apply, outer_ix3]
  have e1 : idx_main_v18 (idx_main_v19 (ix3 p q r)) = ix2 q r :=
    funext fun a => Fin.ext (by match a with | ⟨0, _⟩ => rfl | ⟨1, _⟩ => rfl)
  have e2 : idx_main_v17 (idx_main_v20 (ix3 p q r)) = ix2 p q :=
    funext fun a => Fin.ext (by match a with | ⟨0, _⟩ => rfl | ⟨1, _⟩ => rfl)
  rw [e1, e2]
  exact mul_comm _ _

end Cert.Attention

end
-- ==== Proof.lean ====
/-
  The certificate of the attention-weighted feature array.

  Both programs compute, from `h : [512, 1]`, `v : [384, 384]`, `wh : [384, 512]`, `wv : [512, 384]` and `wg : [512, 512]`,

      s = wv · v + (wg · h) 1ᵀ,   z = wh · tanh s,   alpha = softmax of each row of z,   out(i, j, k) = alpha(i, j) · v(j, k).

  The kernel does it in two regions: the first computes `alpha` whole, the second writes `out` in twelve slabs of 32
  rows. The reference does it in one straight line, and multiplies the last two factors in the other order. On the
  extended reals the two results are equal entry by entry: the weights are one function of the arguments in the two
  spellings (sums over the same index sets, the same elementary functions, in the same order), and the last product
  commutes. No finiteness of the inputs is used.

  The frames are the generated ones (the reference's is its generated run with the result dropped). The ideal pass
  rewrote nothing, so the kernel's idealization is its own text read on the extended reals and that conjunct is trivial.
-/
import proofs.«108995_j47811575939243_1_alg».proof.Defs
import proofs.«108995_j47811575939243_1_alg».proof.Proof.Gen.Kernel
import proofs.«108995_j47811575939243_1_alg».proof.Proof.Gen.Kernel.Skeleton
import proofs.«108995_j47811575939243_1_alg».proof.Proof.Gen.Kernel.Launch
import proofs.«108995_j47811575939243_1_alg».proof.Proof.Gen.Kernel.Points
import proofs.«108995_j47811575939243_1_alg».proof.Proof.Gen.Kernel.Frame
import proofs.«108995_j47811575939243_1_alg».proof.Proof.Gen.KernelIdeal
import proofs.«108995_j47811575939243_1_alg».proof.Proof.Gen.KernelIdeal.Skeleton
import proofs.«108995_j47811575939243_1_alg».proof.Proof.Gen.KernelIdeal.Launch
import proofs.«108995_j47811575939243_1_alg».proof.Proof.Gen.KernelIdeal.Points
import proofs.«108995_j47811575939243_1_alg».proof.Proof.Gen.KernelIdeal.Frame
import proofs.«108995_j47811575939243_1_alg».proof.Proof.Gen.ReferenceIdeal
import proofs.«108995_j47811575939243_1_alg».proof.Proof.Gen.Pre_finite_inputs
import proofs.«108995_j47811575939243_1_alg».proof.Proof.Gen.ReferenceIdeal.Run
import proofs.«108995_j47811575939243_1_alg».proof.Proof.Gen.ReferenceIdeal.Read
import proofs.«108995_j47811575939243_1_alg».proof.Proof.KernelResult
import proofs.«108995_j47811575939243_1_alg».proof.Proof.Weights
import proofs.«108995_j47811575939243_1_alg».proof.Proof.ReferenceResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the five arguments both programs end with `out(i, j, k) = alpha(i, j) · v(j, k)` in their
    result buffers, `alpha` the row softmax of `wh · tanh (wv · v + (wg · h) 1ᵀ)`: the kernel by its run through the two
    regions, the reference by its run read back, its weights the kernel's and its last product commuted. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v21_eq (F := Ideal) _ _ _ _ _).trans ?_
  refine (Cert.Attention.reference_result _ _ _ _ _).trans ?_
  rw [← Cert.Attention.weights_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
